-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S5000x64 : Shape := ⟨2, ![5000, 64]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 183
  | .vmem => 15
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S50000x64, .f32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S850000x1, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x64, .f32⟩
  | 62 => ⟨S850000x64, .f32⟩
  | 63 => ⟨S850000x64, .f32⟩
  | 64 => ⟨S_, .f32⟩
  | 65 => ⟨S50000x64, .f32⟩
  | 66 => ⟨S850000x1, .i32⟩
  | 67 => ⟨S50000x64, .f32⟩
  | 68 => ⟨S1x64, .f32⟩
  | 69 => ⟨S50000x64, .f32⟩
  | 70 => ⟨S50000x64, .f32⟩
  | 71 => ⟨S50000x64, .f32⟩
  | 72 => ⟨S_, .f32⟩
  | 73 => ⟨S850000, .f32⟩
  | 74 => ⟨S_, .f32⟩
  | 75 => ⟨S50000, .f32⟩
  | 76 => ⟨S850000x1, .i32⟩
  | 77 => ⟨S50000, .f32⟩
  | 78 => ⟨S_, .f32⟩
  | 79 => ⟨S50000, .f32⟩
  | 80 => ⟨S50000, .i1⟩
  | 81 => ⟨S_, .f32⟩
  | 82 => ⟨S50000, .f32⟩
  | 83 => ⟨S50000, .f32⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S850000, .f32⟩
  | 108 => ⟨S850000x1, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x64, .f32⟩
  | 118 => ⟨S850000x64, .f32⟩
  | 119 => ⟨S850000x64, .f32⟩
  | 120 => ⟨S_, .f32⟩
  | 121 => ⟨S50000x64, .f32⟩
  | 122 => ⟨S850000x1, .i32⟩
  | 123 => ⟨S50000x64, .f32⟩
  | 124 => ⟨S1x64, .f32⟩
  | 125 => ⟨S50000x64, .f32⟩
  | 126 => ⟨S50000x64, .f32⟩
  | 127 => ⟨S50000x64, .f32⟩
  | _ => ⟨S50000x64, .f32⟩

abbrev hbmTy0_1 (i : Nat) : BufTy := match i % 128 with
  | 0 => ⟨S_, .f32⟩
  | 1 => ⟨S850000, .f32⟩
  | 2 => ⟨S_, .f32⟩
  | 3 => ⟨S50000, .f32⟩
  | 4 => ⟨S850000x1, .i32⟩
  | 5 => ⟨S50000, .f32⟩
  | 6 => ⟨S_, .f32⟩
  | 7 => ⟨S50000, .f32⟩
  | 8 => ⟨S50000, .i1⟩
  | 9 => ⟨S_, .f32⟩
  | 10 => ⟨S50000, .f32⟩
  | 11 => ⟨S50000, .f32⟩
  | 12 => ⟨S50000, .f32⟩
  | 13 => ⟨S_, .f32⟩
  | 14 => ⟨S_, .f32⟩
  | 15 => ⟨S50000, .f32⟩
  | 16 => ⟨S50000, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S850000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S850000, .f32⟩
  | 36 => ⟨S850000x1, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000x64, .f32⟩
  | 46 => ⟨S850000x64, .f32⟩
  | 47 => ⟨S850000x64, .f32⟩
  | 48 => ⟨S_, .f32⟩
  | 49 => ⟨S50000x64, .f32⟩
  | 50 => ⟨S850000x1, .i32⟩
  | 51 => ⟨S50000x64, .f32⟩
  | 52 => ⟨S1x64, .f32⟩
  | 53 => ⟨S50000x64, .f32⟩
  | 54 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_call1_v0 : Ref sig .tc := ⟨.hbm, 86, rfl⟩
abbrev main_call1_v1 : Ref sig .tc := ⟨.hbm, 87, rfl⟩
abbrev main_v59 : Ref sig .tc := ⟨.hbm, 88, rfl⟩
abbrev main_c_15 : Ref sig .tc := ⟨.hbm, 89, rfl⟩
abbrev main_v60 : Ref sig .tc := ⟨.hbm, 90, rfl⟩
abbrev main_v61 : Ref sig .tc := ⟨.hbm, 91, rfl⟩
abbrev main_c_16 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_17 : Ref sig .tc := ⟨.hbm, 98, rfl⟩
abbrev main_v67 : Ref sig .tc := ⟨.hbm, 99, rfl⟩
abbrev main_v68 : Ref sig .tc := ⟨.hbm, 100, rfl⟩
abbrev main_c_18 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_21 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_22 : Ref sig .tc := ⟨.hbm, 128, rfl⟩
abbrev main_v92 : Ref sig .tc := ⟨.hbm, 129, rfl⟩
abbrev main_cst_23 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_24 : Ref sig .tc := ⟨.hbm, 134, rfl⟩
abbrev main_v96 : Ref sig .tc := ⟨.hbm, 135, rfl⟩
abbrev main_v97 : Ref sig .tc := ⟨.hbm, 136, rfl⟩
abbrev main_cst_25 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_26 : Ref sig .tc := ⟨.hbm, 141, rfl⟩
abbrev main_call2_v0 : Ref sig .tc := ⟨.hbm, 142, rfl⟩
abbrev main_call2_v1 : Ref sig .tc := ⟨.hbm, 143, rfl⟩
abbrev main_v101 : Ref sig .tc := ⟨.hbm, 144, rfl⟩
abbrev main_c_27 : Ref sig .tc := ⟨.hbm, 145, rfl⟩
abbrev main_v102 : Ref sig .tc := ⟨.hbm, 146, rfl⟩
abbrev main_v103 : Ref sig .tc := ⟨.hbm, 147, rfl⟩
abbrev main_c_28 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_c_29 : Ref sig .tc := ⟨.hbm, 154, rfl⟩
abbrev main_v109 : Ref sig .tc := ⟨.hbm, 155, rfl⟩
abbrev main_v110 : Ref sig .tc := ⟨.hbm, 156, rfl⟩
abbrev main_c_30 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_c_31 : Ref sig .tc := ⟨.hbm, 165, rfl⟩
abbrev main_v118 : Ref sig .tc := ⟨.hbm, 166, rfl⟩
abbrev main_v119 : Ref sig .tc := ⟨.hbm, 167, rfl⟩
abbrev main_c_32 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_33 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  dot_S5000x64_S64x64_S5000x64_1_0_0_1_n_n_wf : DotDims.WF S5000x64 S64x64 S5000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v90) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v91) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 183
  | .vmem => 0
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S50000x64, .f32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S850000x1, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x64, .f32⟩
  | 62 => ⟨S850000x64, .f32⟩
  | 63 => ⟨S850000x64, .f32⟩
  | 64 => ⟨S_, .f32⟩
  | 65 => ⟨S50000x64, .f32⟩
  | 66 => ⟨S850000x1, .i32⟩
  | 67 => ⟨S50000x64, .f32⟩
  | 68 => ⟨S1x64, .f32⟩
  | 69 => ⟨S50000x64, .f32⟩
  | 70 => ⟨S50000x64, .f32⟩
  | 71 => ⟨S50000x64, .f32⟩
  | 72 => ⟨S_, .f32⟩
  | 73 => ⟨S850000, .f32⟩
  | 74 => ⟨S_, .f32⟩
  | 75 => ⟨S50000, .f32⟩
  | 76 => ⟨S850000x1, .i32⟩
  | 77 => ⟨S50000, .f32⟩
  | 78 => ⟨S_, .f32⟩
  | 79 => ⟨S50000, .f32⟩
  | 80 => ⟨S50000, .i1⟩
  | 81 => ⟨S_, .f32⟩
  | 82 => ⟨S50000, .f32⟩
  | 83 => ⟨S50000, .f32⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S850000, .f32⟩
  | 108 => ⟨S850000x1, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x64, .f32⟩
  | 118 => ⟨S850000x64, .f32⟩
  | 119 => ⟨S850000x64, .f32⟩
  | 120 => ⟨S_, .f32⟩
  | 121 => ⟨S50000x64, .f32⟩
  | 122 => ⟨S850000x1, .i32⟩
  | 123 => ⟨S50000x64, .f32⟩
  | 124 => ⟨S1x64, .f32⟩
  | 125 => ⟨S50000x64, .f32⟩
  | 126 => ⟨S50000x64, .f32⟩
  | 127 => ⟨S50000x64, .f32⟩
  | _ => ⟨S50000x64, .f32⟩

abbrev hbmTy0_1 (i : Nat) : BufTy := match i % 128 with
  | 0 => ⟨S_, .f32⟩
  | 1 => ⟨S850000, .f32⟩
  | 2 => ⟨S_, .f32⟩
  | 3 => ⟨S50000, .f32⟩
  | 4 => ⟨S850000x1, .i32⟩
  | 5 => ⟨S50000, .f32⟩
  | 6 => ⟨S_, .f32⟩
  | 7 => ⟨S50000, .f32⟩
  | 8 => ⟨S50000, .i1⟩
  | 9 => ⟨S_, .f32⟩
  | 10 => ⟨S50000, .f32⟩
  | 11 => ⟨S50000, .f32⟩
  | 12 => ⟨S50000, .f32⟩
  | 13 => ⟨S_, .f32⟩
  | 14 => ⟨S_, .f32⟩
  | 15 => ⟨S50000, .f32⟩
  | 16 => ⟨S50000, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S850000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S850000, .f32⟩
  | 36 => ⟨S850000x1, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000x64, .f32⟩
  | 46 => ⟨S850000x64, .f32⟩
  | 47 => ⟨S850000x64, .f32⟩
  | 48 => ⟨S_, .f32⟩
  | 49 => ⟨S50000x64, .f32⟩
  | 50 => ⟨S850000x1, .i32⟩
  | 51 => ⟨S50000x64, .f32⟩
  | 52 => ⟨S1x64, .f32⟩
  | 53 => ⟨S50000x64, .f32⟩
  | 54 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_call1_v0 : Ref sig .tc := ⟨.hbm, 86, rfl⟩
abbrev main_call1_v1 : Ref sig .tc := ⟨.hbm, 87, rfl⟩
abbrev main_v59 : Ref sig .tc := ⟨.hbm, 88, rfl⟩
abbrev main_c_15 : Ref sig .tc := ⟨.hbm, 89, rfl⟩
abbrev main_v60 : Ref sig .tc := ⟨.hbm, 90, rfl⟩
abbrev main_v61 : Ref sig .tc := ⟨.hbm, 91, rfl⟩
abbrev main_c_16 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_17 : Ref sig .tc := ⟨.hbm, 98, rfl⟩
abbrev main_v67 : Ref sig .tc := ⟨.hbm, 99, rfl⟩
abbrev main_v68 : Ref sig .tc := ⟨.hbm, 100, rfl⟩
abbrev main_c_18 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_21 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_22 : Ref sig .tc := ⟨.hbm, 128, rfl⟩
abbrev main_v92 : Ref sig .tc := ⟨.hbm, 129, rfl⟩
abbrev main_cst_23 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_24 : Ref sig .tc := ⟨.hbm, 134, rfl⟩
abbrev main_v96 : Ref sig .tc := ⟨.hbm, 135, rfl⟩
abbrev main_v97 : Ref sig .tc := ⟨.hbm, 136, rfl⟩
abbrev main_cst_25 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_26 : Ref sig .tc := ⟨.hbm, 141, rfl⟩
abbrev main_call2_v0 : Ref sig .tc := ⟨.hbm, 142, rfl⟩
abbrev main_call2_v1 : Ref sig .tc := ⟨.hbm, 143, rfl⟩
abbrev main_v101 : Ref sig .tc := ⟨.hbm, 144, rfl⟩
abbrev main_c_27 : Ref sig .tc := ⟨.hbm, 145, rfl⟩
abbrev main_v102 : Ref sig .tc := ⟨.hbm, 146, rfl⟩
abbrev main_v103 : Ref sig .tc := ⟨.hbm, 147, rfl⟩
abbrev main_c_28 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_c_29 : Ref sig .tc := ⟨.hbm, 154, rfl⟩
abbrev main_v109 : Ref sig .tc := ⟨.hbm, 155, rfl⟩
abbrev main_v110 : Ref sig .tc := ⟨.hbm, 156, rfl⟩
abbrev main_c_30 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_c_31 : Ref sig .tc := ⟨.hbm, 165, rfl⟩
abbrev main_v118 : Ref sig .tc := ⟨.hbm, 166, rfl⟩
abbrev main_v119 : Ref sig .tc := ⟨.hbm, 167, rfl⟩
abbrev main_c_32 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_33 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  THE KERNEL PROGRAM'S RUN, WITH ITS RESULT NAMED.

  The program is thirteen segments: stretches of host operations, and between them three launches of the
  projection  h ↦ h · W  (one per layer).  The generated module folds the buffer contents through the segments
  (`W0` at launch … `W13` at the return) and proves that every weakly fair execution terminates with every
  unscoped buffer at `W13`.  Its frame theorem keeps of that only "the eight arguments end as launched".  Here the
  same run is read once more and ALSO keeps what the result buffer holds:  `W13` at the result.
-/
import proofs.«146344_j73272142070247_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result buffer then holds the last
    boundary's contents `W13` at it, and the eight argument arrays are as launched. -/
theorem run_value : θ_run defs (onTc (τ := τ) (main (F := F))) ⟨m, fun _ => 0, ρ⟩ (fun r => ∀ c : Dev nD,
      r.2.mem ((c.tc : Thread nD τ).loc main_v132) = W13 m ρ c (Proc.devRef .tc main_v132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v132 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)

end Cert.KernelIdeal.Run

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.Product.lean ====
/-
  THE PROJECTION  h ↦ h · W  OF ONE GRAPH-CONVOLUTION LAYER, as one function of whole arrays.

  A layer first multiplies the node features h (50000 nodes, 64 features each) by a 64 × 64 weight matrix W.
  Entry (r, c) of the product is the sum over k of  h (r, k) · W (k, c):  it reads row r of h and column c of W and
  nothing else.  That is why the product may be computed 5000 rows at a time: the rows r of one block of the
  result depend only on the same rows of h.

  * `product`          — the whole product, index by index, on the extended reals;
  * `dotGeneral_eq`    — a host dot_general with the plain product's dimension numbers IS `product`;
  * `block_apply`      — a matmul of a 5000-row block into the zero accumulator, read at an entry of the block.

  Nothing here depends on a program.
-/
import proofs.«146344_j73272142070247_1_alg».proof.Proof.LibPlainDot

noncomputable section

open scoped BigOperators

namespace Cert.Product

open Idealize.ShloMosaic Idealize.ShloMosaic.ValueIdx

/-- Node features times a weight matrix: entry (r, c) is the sum over k of  x (r, k) · w (k, c). -/
def product (x : FVec Ideal ⟨2, ![50000, 64]⟩ .f32) (w : FVec Ideal ⟨2, ![64, 64]⟩ .f32) :
    FVec Ideal ⟨2, ![50000, 64]⟩ .f32 :=
  fun j => ∑ k : Fin 64, x (ix2 (j 0) k) * w (ix2 k (j 1))

theorem product_apply (x : FVec Ideal ⟨2, ![50000, 64]⟩ .f32) (w : FVec Ideal ⟨2, ![64, 64]⟩ .f32)
    (j : (⟨2, ![50000, 64]⟩ : Shape).Idx) :
    product x w j = ∑ k : Fin 64, x (ix2 (j 0) k) * w (ix2 k (j 1)) := rfl

/-- The host's dot_general of [50000, 64] · [64, 64], contracting the left operand's axis 1 with the right operand's
    axis 0 and with no batch axis, is the product. -/
theorem dotGeneral_eq (d : DotDims ⟨2, ![50000, 64]⟩ ⟨2, ![64, 64]⟩ ⟨2, ![50000, 64]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![50000, 64]⟩ .f32) (r : FVec Ideal ⟨2, ![64, 64]⟩ .f32) :
    Host.dotGeneral d prec l r = product l r := by
  rw [Cert.Lib.PlainDot.eq_plain d h1 h2 h3 h4 h5 h6]
  funext j
  exact Cert.Lib.PlainDot.dotGeneral_plain_apply prec l r j

/-- A 5000-row block times the weight matrix, accumulated from zero, read at entry (r, c) of the block: the sum over k
    of the block's (r, k) times the weight's (k, c). The operands may be of any float format: at the ideal values a
    format is not seen. -/
theorem block_apply (d : DotDims ⟨2, ![5000, 64]⟩ ⟨2, ![64, 64]⟩ ⟨2, ![5000, 64]⟩)
    (h1 : d.lhsContracting = [1]) (h2 : d.rhsContracting = [0]) (h3 : d.lhsNonContracting = [0])
    (h4 : d.rhsNonContracting = [1]) (h5 : d.lhsBatch = []) (h6 : d.rhsBatch = [])
    {φ₁ φ₂ : FTy} (prec : Option ContractPrecision)
    (l : FVec Ideal ⟨2, ![5000, 64]⟩ φ₁) (r : FVec Ideal ⟨2, ![64, 64]⟩ φ₂) (y : (⟨2, ![5000, 64]⟩ : Shape).Idx) :
    matmul d prec l r (constant ⟨2, ![5000, 64]⟩ .f32 0x00000000#32) y
      = ∑ k : Fin 64, l (ix2 (y 0) k) * r (ix2 k (y 1)) := by
  rw [Cert.Lib.PlainDot.eq_plain d h1 h2 h3 h4 h5 h6]
  exact Cert.Lib.PlainDot.matmul_zero_plain_apply prec l r y

end Cert.Product

end
-- ==== Proof.Region0.lean ====
/-
  LAUNCH 0 OF THE PROJECTION:  the whole result array is  features · weight.

  The launch walks ten grid points.  At point t it is handed rows 5000·t … 5000·t + 4999 of the feature array
  (all 64 columns) and the whole 64 × 64 weight matrix, multiplies them into a zero accumulator and writes the
  5000 × 64 result back as rows 5000·t … 5000·t + 4999 of the output.
  Entry (r, c) of a product reads only row r of the left factor, so what point t writes is exactly rows
  5000·t … of the whole product; the ten blocks tile the 50000 rows (row r lies in block r / 5000), so the output
  array ends holding the whole product.  This is stated for ANY contents `V` the launch may find in its buffers.
-/
import proofs.«146344_j73272142070247_1_alg».proof.Proof.Gen.KernelIdeal.Frame
import proofs.«146344_j73272142070247_1_alg».proof.Proof.Product
import Idealize.ShloMosaic.Lib.Pipeline.Value

set_option maxRecDepth 16384

noncomputable section

open scoped BigOperators

namespace Cert.KernelIdeal.Region0

open Cert.KernelIdeal Cert.KernelIdeal.Gen Cert.Product
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at entry (r, c) of the block: the sum over k of the feature block's (r, k) times the
    weight's (k, c). The two casts to a narrower float format are the identity on ideal values. -/
theorem pay_apply (x0 : Vec Ideal S5000x64 .f32) (x1 : Vec Ideal S64x64 .f32) (y : S5000x64.Idx) :
    k0_pay1 (F := Ideal) x0 x1 y = ∑ k : Fin 64, x0 (ix2 (y 0) k) * x1 (ix2 k (y 1)) := by
  unfold k0_pay1
  exact block_apply dot_S5000x64_S64x64_S5000x64_1_0_0_1_n_n rfl rfl rfl rfl rfl rfl none
    (truncf .bf16 x0 bitsLt_bf16_f32) (truncf .bf16 x1 bitsLt_bf16_f32) y

/-- The printed index maps, decided over the ten grid points: the feature window and the output window are both at
    block (t, 0), the weight window always at block (0, 0). -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT t WRITES BACK is block t of the whole product of the arrays as the launch finds them. -/
theorem flushed_eq (c : Dev nD) (t : Fin cfg0.N) :
    (dat0 V c).flushed 2 t
      = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨e0, e1, e2, e3, e4, e5⟩ := idx_facts t
  funext j
  show k0_pay1 (F := Ideal) (iblk0 V c 0 t) (iblk0 V c 1 t) j
    = product (V c main_arg0) (V c main_arg2) (((cfg0.win 2).blk t).view.emb j)
  refine (pay_apply _ _ j).trans ?_
  rw [product_apply]
  refine Finset.sum_congr rfl fun k _ => ?_
  have hx : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) ?_
    funext a; apply Fin.ext
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 64 + 1 * k.val = k.val
      omega
  have hw : iblk0 V c 1 t (ix2 k (j 1)) = V c main_arg2 (ix2 k ((((cfg0.win 2).blk t).view.emb j) 1)) := by
    show V c main_arg2 (((cfg0.win 1).blk t).view.emb (ix2 k (j 1))) = _
    refine congrArg (V c main_arg2) ?_
    funext a; apply Fin.ext
    match a with
    | ⟨0, _⟩ =>
      show win0_1.index t (0 : Fin 2) * 64 + 1 * k.val = k.val
      omega
    | ⟨1, _⟩ =>
      show win0_1.index t (1 : Fin 2) * 64 + 1 * (j 1).val = win0_2.index t (1 : Fin 2) * 64 + 1 * (j 1).val
      omega
  rw [hx, hw]

/-- An index of the output array is in point t's block iff each coordinate is in the block's range on its axis. -/
theorem mem_blk (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v7).slice (win0_2.rect t)).set ↔ _
  rw [View.set_slice_whole, Rect.mem_set_unit]
  exact Iff.rfl

/-- THE TEN BLOCKS TILE THE ARRAY: row r is in the block of point r / 5000, which is written back. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hlt : (i 0).val / 5000 < cfg0.N := by
    show (i 0).val / 5000 < grid0.N
    rw [N_0]; omega
  obtain ⟨e0, e1, e2, e3, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000
    omega
  | ⟨1, _⟩ =>
    show win0_2.index ⟨(i 0).val / 5000, hlt⟩ (1 : Fin 2) * 64 ≤ (i 1).val
      ∧ (i 1).val < win0_2.index ⟨(i 0).val / 5000, hlt⟩ (1 : Fin 2) * 64 + 64
    rw [e5]; omega

/-- THE OUTPUT ARRAY AFTER THE LAUNCH is the whole product of the feature array and the weight matrix it found. -/
theorem arr_eq (c : Dev nD) : (dat0 V c).arrAt 2 cfg0.N = product (V c main_arg0) (V c main_arg2) :=
  (dat0 V c).arrAt_eq_of_cover 2 (product (V c main_arg0) (V c main_arg2)) (fun t _ => flushed_eq V c t) (cover)

end Cert.KernelIdeal.Region0

end
-- ==== Proof.Region1.lean ====
/-
  LAUNCH 1 OF THE PROJECTION:  the whole result array is  features · weight.

  The launch walks ten grid points.  At point t it is handed rows 5000·t … 5000·t + 4999 of the feature array
  (all 64 columns) and the whole 64 × 64 weight matrix, multiplies them into a zero accumulator and writes the
  5000 × 64 result back as rows 5000·t … 5000·t + 4999 of the output.
  (This launch's body first casts the feature block to its own shape, which changes nothing.)
  Entry (r, c) of a product reads only row r of the left factor, so what point t writes is exactly rows
  5000·t … of the whole product; the ten blocks tile the 50000 rows (row r lies in block r / 5000), so the output
  array ends holding the whole product.  This is stated for ANY contents `V` the launch may find in its buffers.
-/
import proofs.«146344_j73272142070247_1_alg».proof.Proof.Gen.KernelIdeal.Frame
import proofs.«146344_j73272142070247_1_alg».proof.Proof.Product
import Idealize.ShloMosaic.Lib.Pipeline.Value

set_option maxRecDepth 16384

noncomputable section

open scoped BigOperators

namespace Cert.KernelIdeal.Region1

open Cert.KernelIdeal Cert.KernelIdeal.Gen Cert.Product
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at entry (r, c) of the block: the sum over k of the feature block's (r, k) times the
    weight's (k, c). The two casts to a narrower float format are the identity on ideal values, and the cast of the
    feature block to its own shape is the identity on any values. -/
theorem pay_apply (x0 : Vec Ideal S5000x64 .f32) (x1 : Vec Ideal S64x64 .f32) (y : S5000x64.Idx) :
    k1_pay1 (F := Ideal) x0 x1 y = ∑ k : Fin 64, x0 (ix2 (y 0) k) * x1 (ix2 k (y 1)) := by
  unfold k1_pay1
  rw [shapeCast_self]
  exact block_apply dot_S5000x64_S64x64_S5000x64_1_0_0_1_n_n rfl rfl rfl rfl rfl rfl none
    (truncf .bf16 x0 bitsLt_bf16_f32) (truncf .bf16 x1 bitsLt_bf16_f32) y

/-- The printed index maps, decided over the ten grid points: the feature window and the output window are both at
    block (t, 0), the weight window always at block (0, 0). -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- WHAT POINT t WRITES BACK is block t of the whole product of the arrays as the launch finds them. -/
theorem flushed_eq (c : Dev nD) (t : Fin cfg1.N) :
    (dat1 V c).flushed 2 t
      = ((cfg1.win 2).blk t).view.read (Elt Ideal) (product (V c main_v48) (V c main_arg4)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  obtain ⟨e0, e1, e2, e3, e4, e5⟩ := idx_facts t
  funext j
  show k1_pay1 (F := Ideal) (iblk1 V c 0 t) (iblk1 V c 1 t) j
    = product (V c main_v48) (V c main_arg4) (((cfg1.win 2).blk t).view.emb j)
  refine (pay_apply _ _ j).trans ?_
  rw [product_apply]
  refine Finset.sum_congr rfl fun k _ => ?_
  have hx : iblk1 V c 0 t (ix2 (j 0) k) = V c main_v48 (ix2 ((((cfg1.win 2).blk t).view.emb j) 0) k) := by
    show V c main_v48 (((cfg1.win 0).blk t).view.emb (ix2 (j 0) k)) = _
    refine congrArg (V c main_v48) ?_
    funext a; apply Fin.ext
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 64 + 1 * k.val = k.val
      omega
  have hw : iblk1 V c 1 t (ix2 k (j 1)) = V c main_arg4 (ix2 k ((((cfg1.win 2).blk t).view.emb j) 1)) := by
    show V c main_arg4 (((cfg1.win 1).blk t).view.emb (ix2 k (j 1))) = _
    refine congrArg (V c main_arg4) ?_
    funext a; apply Fin.ext
    match a with
    | ⟨0, _⟩ =>
      show win1_1.index t (0 : Fin 2) * 64 + 1 * k.val = k.val
      omega
    | ⟨1, _⟩ =>
      show win1_1.index t (1 : Fin 2) * 64 + 1 * (j 1).val = win1_2.index t (1 : Fin 2) * 64 + 1 * (j 1).val
      omega
  rw [hx, hw]

/-- An index of the output array is in point t's block iff each coordinate is in the block's range on its axis. -/
theorem mem_blk (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v49).slice (win1_2.rect t)).set ↔ _
  rw [View.set_slice_whole, Rect.mem_set_unit]
  exact Iff.rfl

/-- THE TEN BLOCKS TILE THE ARRAY: row r is in the block of point r / 5000, which is written back. -/
theorem cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hlt : (i 0).val / 5000 < cfg1.N := by
    show (i 0).val / 5000 < grid1.N
    rw [N_1]; omega
  obtain ⟨e0, e1, e2, e3, e4, e5⟩ := idx_facts ⟨(i 0).val / 5000, hlt⟩
  refine ⟨⟨(i 0).val / 5000, hlt⟩, flush1_2 _, ?_⟩
  rw [mem_blk]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    rw [e4]; show (i 0).val / 5000 * 5000 ≤ (i 0).val ∧ (i 0).val < (i 0).val / 5000 * 5000 + 5000
    omega
  | ⟨1, _⟩ =>
    show win1_2.index ⟨(i 0).val / 5000, hlt⟩ (1 : Fin 2) * 64 ≤ (i 1).val
      ∧ (i 1).val < win1_2.index ⟨(i 0).val / 5000, hlt⟩ (1 : Fin 2) * 64 + 64
    rw [e5]; omega

/-- THE OUTPUT ARRAY AFTER THE LAUNCH is the whole product of the feature array and the weight matrix it found. -/
theorem arr_eq (c : Dev nD) : (dat1 V c).arrAt 2 cfg1.N = product (V c main_v48) (V c main_arg4) :=
  (dat1 V c).arrAt_eq_of_cover 2 (product (V c main_v48) (V c main_arg4)) (fun t _ => flushed_eq V c t) (cover)

end Cert.KernelIdeal.Region1

end
-- ==== Proof.Region2.lean ====
/-
  LAUNCH 2 OF THE PROJECTION:  the whole result array is  features · weight.

  The launch walks ten grid points.  At point t it is handed rows 5000·t … 5000·t + 4999 of the feature array
  (all 64 columns) and the whole 64 × 64 weight matrix, multiplies them into a zero accumulator and writes the
  5000 × 64 result back as rows 5000·t … 5000·t + 4999 of the output.
  (This launch's body first casts the feature block to its own shape, which changes nothing.)
  Entry (r, c) of a product reads only row r of the left factor, so what point t writes is exactly rows
  5000·t … of the whole product; the ten blocks tile the 50000 rows (row r lies in block r / 5000), so the output
  array ends holding the whole product.  This is stated for ANY contents `V` the launch may find in its buffers.
-/
import proofs.«146344_j73272142070247_1_alg».proof.Proof.Gen.KernelIdeal.Frame
import proofs.«146344_j73272142070247_1_alg».proof.Proof.Product
import Idealize.ShloMosaic.Lib.Pipeline.Value

set_option maxRecDepth 16384

noncomputable section

open scoped BigOperators

namespace Cert.KernelIdeal.Region2

open Cert.KernelIdeal Cert.KernelIdeal.Gen Cert.Product
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at entry (r, c) of the block: the sum over k of the feature block's (r, k) times the
    weight's (k, c). The two casts to a narrower float format are the identity on ideal values, and the cast of the
    feature block to its own shape is the identity on any values. -/
theorem pay_apply (x0 : Vec Ideal S5000x64 .f32) (x1 : Vec Ideal S64x64 .f32) (y : S5000x64.Idx) :
    k2_pay1 (F := Ideal) x0 x1 y = ∑ k : Fin 64, x0 (ix2 (y 0) k) * x1 (ix2 k (y 1)) := by
  unfold k2_pay1
  rw [shapeCast_self]
  exact block_apply dot_S5000x64_S64x64_S5000x64_1_0_0_1_n_n rfl rfl rfl rfl rfl rfl none
    (truncf .bf16 x0 bitsLt_bf16_f32) (truncf .bf16 x1 bitsLt_bf16_f32) y

/-- The printed index maps, decided over the ten grid points: the feature window and the output window are both at
    block (t, 0), the weight window always at block (0, 0). -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- WHAT POINT t WRITES BACK is block t of the whole product of the arrays as the launch finds them. -/
theorem flushed_eq (c : Dev nD) (t : Fin cfg2.N) :
    (dat2 V c).flushed 2 t
      = ((cfg2.win 2).blk t).view.read (Elt Ideal) (product (V c main_v90) (V c main_arg6)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨e0, e1, e2, e3, e4, e5⟩ := idx_facts t
  funext j
  show k2_pay1 (F := Ideal) (iblk2 V c 0 t) (iblk2 V c 1 t) j
    = product (V c main_v90) (V c main_arg6) (((cfg2.win 2).blk t).view.emb j)
  refine (pay_apply _ _ j).trans ?_
  rw [product_apply]
  refine Finset.sum_congr rfl fun k _ => ?_
  have hx : iblk2 V c 0 t (ix2 (j 0) k) = V c main_v90 (ix2 ((((cfg2.win 2).blk t).view.emb j) 0) k) := by
    show V c main_v90 (((cfg2.win 0).blk t).view.emb (ix2 (j 0) k)) = _
    refine congrArg (V c main_v90) ?_
    funext a; apply Fin.ext
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 64 + 1 * k.val = k.val
      omega
  have hw : iblk2 V c 1 t (ix2 k (j 1)) = V c main_arg6 (ix2 k ((((cfg2.win 2).blk t).view.emb j) 1)) := by
    show V c main_arg6 (((cfg2.win 1).blk t).view.emb (ix2 k (j 1))) = _
    refine congrArg (V c main_arg6) ?_
    funext a; apply Fin.ext
    match a with
    | ⟨0, _⟩ =>
      show win2_1.index t (0 : Fin 2) * 64 + 1 * k.val = k.val
      omega
    | ⟨1, _⟩ =>
      show win2_1.index t (1 : Fin 2) * 64 + 1 * (j 1).val = win2_2.index t (1 : Fin 2) * 64 + 1 * (j 1).val
      omega
  rw [hx, hw]

/-- An index of the output array is in point t's block iff each coordinate is in the block's range on its axis. -/
theorem mem_blk (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v91).slice (win2_2.rect t)).set ↔ _
  rw [View.set_slice_whole, Rect.mem_set_unit]
  exact Iff.rfl

/-- THE TEN BLOCKS TILE THE ARRAY: row r is in the block of point r / 5000, which is written back. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hlt : (i 0).val / 5000 < cfg2.N := by
    show (i 0).val / 5000 < grid2.N
    rw [N_2]; omega
  obtain ⟨e0, e1, e2, e3, e4, e5⟩ := idx_facts ⟨(i 0).val / 5000, hlt⟩
  refine ⟨⟨(i 0).val / 5000, hlt⟩, flush2_2 _, ?_⟩
  rw [mem_blk]
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    rw [e4]; show (i 0).val / 5000 * 5000 ≤ (i 0).val ∧ (i 0).val < (i 0).val / 5000 * 5000 + 5000
    omega
  | ⟨1, _⟩ =>
    show win2_2.index ⟨(i 0).val / 5000, hlt⟩ (1 : Fin 2) * 64 ≤ (i 1).val
      ∧ (i 1).val < win2_2.index ⟨(i 0).val / 5000, hlt⟩ (1 : Fin 2) * 64 + 64
    rw [e5]; omega

/-- THE OUTPUT ARRAY AFTER THE LAUNCH is the whole product of the feature array and the weight matrix it found. -/
theorem arr_eq (c : Dev nD) : (dat2 V c).arrAt 2 cfg2.N = product (V c main_v90) (V c main_arg6) :=
  (dat2 V c).arrAt_eq_of_cover 2 (product (V c main_v90) (V c main_arg6)) (fun t _ => flushed_eq V c t) (cover)

end Cert.KernelIdeal.Region2

end
-- ==== Proof.KernelFold.lean ====
/-
  WHAT EACH LAUNCH LEAVES IN ITS OUTPUT BUFFER, read at the program's segment boundaries.

  The buffer contents are folded through the program's segments: `W1`, `W5`, `W9` are the contents when the
  first, second and third launch are entered, `W2`, `W6`, `W10` the contents when they are left.  A launch
  changes only its own arrays; its output array ends holding the product of the feature array and the weight
  matrix it was entered with (the three launch modules).  So at each exit boundary the launch's output buffer is
  that product of the entry boundary's contents.
-/
import proofs.«146344_j73272142070247_1_alg».proof.Proof.Region0
import proofs.«146344_j73272142070247_1_alg».proof.Proof.Region1
import proofs.«146344_j73272142070247_1_alg».proof.Proof.Region2

set_option maxRecDepth 16384

noncomputable section

namespace Cert.KernelIdeal.Fold

open Cert.KernelIdeal Cert.KernelIdeal.Gen Cert.Product
open Idealize.ShloMosaic Idealize.ShloMosaic.TcCoe Idealize.SL.Sem

variable (m : (ℓ : Loc nD τ sig) → Buf (Elt Ideal) ℓ) (ρ : Dev nD → PrngReg)

/-- Layer 1: after the first launch, its output buffer holds  x · W1  of the entry contents. -/
theorem v7 (c : Dev nD) : W2 m ρ c (Proc.devRef .tc main_v7)
    = product (W1 m ρ c (Proc.devRef .tc main_arg0)) (W1 m ρ c (Proc.devRef .tc main_arg2)) :=
  (W2_arr m ρ c 2).trans (Region0.arr_eq (V1 m ρ) c)

/-- Layer 2: after the second launch, its output buffer holds  h₁ · W2  of the entry contents. -/
theorem v49 (c : Dev nD) : W6 m ρ c (Proc.devRef .tc main_v49)
    = product (W5 m ρ c (Proc.devRef .tc main_v48)) (W5 m ρ c (Proc.devRef .tc main_arg4)) :=
  (W6_arr m ρ c 2).trans (Region1.arr_eq (V5 m ρ) c)

/-- Layer 3: after the third launch, its output buffer holds  h₂ · W3  of the entry contents. -/
theorem v91 (c : Dev nD) : W10 m ρ c (Proc.devRef .tc main_v91)
    = product (W9 m ρ c (Proc.devRef .tc main_v90)) (W9 m ρ c (Proc.devRef .tc main_arg6)) :=
  (W10_arr m ρ c 2).trans (Region2.arr_eq (V9 m ρ) c)

end Cert.KernelIdeal.Fold

end
-- ==== Proof.RefProduct.lean ====
/-
  THE REFERENCE'S THREE PROJECTIONS  h ↦ h · W.

  The reference computes each layer's projection with one host dot_general of [50000, 64] · [64, 64] contracting the
  features' axis 1 with the weight's axis 0.  At the ideal values that operation is the whole product, index by index.
-/
import proofs.«146344_j73272142070247_1_alg».proof.Proof.RefRunP
import proofs.«146344_j73272142070247_1_alg».proof.Proof.Product

noncomputable section

namespace Cert.ReferenceIdeal.RefValue

open Cert.ReferenceIdeal Cert.Product Idealize.ShloMosaic

/-- The reference's dot_general, with the dimension numbers as printed, is the product of its two operands. -/
theorem dot_eq (l : FVec Ideal S50000x64 .f32) (r : FVec Ideal S64x64 .f32) :
    Host.dotGeneral dot_S50000x64_S64x64_S50000x64_1_0_0_1_n_n none l r = product l r :=
  dotGeneral_eq dot_S50000x64_S64x64_S50000x64_1_0_0_1_n_n rfl rfl rfl rfl rfl rfl none l r

end Cert.ReferenceIdeal.RefValue

end
-- ==== Proof.LibTypedRef.lean ====
/-
  A VALUE PASSED THROUGH A TYPED BUFFER REFERENCE AND BACK IS THE VALUE, generic in everything.

  The operations of a module-local function (an outlined  where,  clip,  relu, …) name their buffers with the
  tensor type attached: a typed reference is a buffer together with the equation "this buffer's type is T".
  Writing a value of type T through it transports the value along that equation to the buffer's own type, and
  reading transports it back.  The two transports are inverse to each other whatever the buffer and whatever the
  equation's proof:

  * `ofBuf_toBuf`  — read back what was written through the same typed reference: the value written;
  * `toBuf_ofBuf`  — write back what was read through it: the contents read.

  These cancel every transport on a function's OWN intermediate buffers.  What is then left in a term are the
  transports at the buffers the function shares with its caller (one per operand read, one per result written);
  each of those is the identity by `rfl` when stated at a VARIABLE for the one buffer concerned, because that
  buffer's type in the program's table computes to the stated type.  Removing all of them before two large terms are
  compared matters: met in the middle of a large term a transport is not reduced first, the comparison drifts into
  unfolding the operations around it, and an operation that sums over a long axis is then evaluated.

  Nothing here depends on a program.
-/
import Idealize.ShloMosaic.Lib.StableHlo

noncomputable section

namespace Cert.Lib.TypedRef

open Idealize.ShloMosaic Idealize.ShloMosaic.StableHlo

variable {sig : RefSig} {Val : EltTy → Type} {T : BufTy}

/-- Reading back through a typed reference what was written through it gives the value written. -/
theorem ofBuf_toBuf (x : TRef sig T) (v : T.Contents Val) : x.ofBuf (x.toBuf v) = v := by
  obtain ⟨r, h, a, b⟩ := x
  subst h
  rfl

/-- Writing back through a typed reference what was read through it gives the contents read. -/
theorem toBuf_ofBuf (x : TRef sig T) (v : x.ref.ty.Contents Val) : x.toBuf (x.ofBuf v) = v := by
  obtain ⟨r, h, a, b⟩ := x
  subst h
  rfl

end Cert.Lib.TypedRef

end
-- ==== Proof.Casts.lean ====
/-
  A VALUE PASSED THROUGH A TYPED BUFFER REFERENCE IS THE VALUE.

  Each layer computes its normalising factor  d = where(degree > 0, rsqrt(max(degree, tiny)), 0)  through a small
  function of three operations, whose buffers are named with their tensor type attached.  Writing a value of
  that type into such a buffer, or reading one back, transports the value along the equation "the buffer's type
  is the stated type".  The buffer's type, looked up in the program's table of buffers, IS the stated type, so
  every such transport is the identity:

  * on the function's own two intermediate buffers a value is written and read back through the same reference, and
    the two transports cancel (the general lemma `Cert.Lib.TypedRef.ofBuf_toBuf`, Proof/LibTypedRef.lean);
  * `toBuf_v…`, `ofBuf_v…`, `ofBuf_cst_…`  — for the four buffers each of the three functions shares with the
    rest of the program (the mask, the inverse square root, the zero, and the result), the transport alone is the
    identity, because that buffer's type in the table is the stated one.
-/
import proofs.«146344_j73272142070247_1_alg».proof.KernelIdeal
import Idealize.ShloMosaic.Lib.StableHlo
import Idealize.ShloMosaic.PureOps.Ideal
import proofs.«146344_j73272142070247_1_alg».proof.Proof.LibTypedRef

set_option maxRecDepth 16384

noncomputable section

namespace Cert.KernelIdeal.Casts

open Cert.KernelIdeal Idealize.ShloMosaic Idealize.ShloMosaic.StableHlo

/-! The buffers the three functions share with the rest of the program: layer 1, layer 2, layer 3. -/

theorem toBuf_v17 (p1 p2 p3) (X : (⟨S50000, .f32⟩ : BufTy).Contents (Elt Ideal)) :
    (TRef.of (sig := sig) (T := ⟨S50000, .f32⟩) main_v17 p1 p2 p3).toBuf X = X := rfl
theorem ofBuf_v13 (p1 p2 p3) (X : main_v13.ty.Contents (Elt Ideal)) :
    (TRef.of (sig := sig) (T := ⟨S50000, .i1⟩) main_v13 p1 p2 p3).ofBuf X = X := rfl
theorem ofBuf_v16 (p1 p2 p3) (X : main_v16.ty.Contents (Elt Ideal)) :
    (TRef.of (sig := sig) (T := ⟨S50000, .f32⟩) main_v16 p1 p2 p3).ofBuf X = X := rfl
theorem ofBuf_cst_3 (p1 p2 p3) (X : main_cst_3.ty.Contents (Elt Ideal)) :
    (TRef.of (sig := sig) (T := ⟨S_, .f32⟩) main_cst_3 p1 p2 p3).ofBuf X = X := rfl
theorem toBuf_v59 (p1 p2 p3) (X : (⟨S50000, .f32⟩ : BufTy).Contents (Elt Ideal)) :
    (TRef.of (sig := sig) (T := ⟨S50000, .f32⟩) main_v59 p1 p2 p3).toBuf X = X := rfl
theorem ofBuf_v55 (p1 p2 p3) (X : main_v55.ty.Contents (Elt Ideal)) :
    (TRef.of (sig := sig) (T := ⟨S50000, .i1⟩) main_v55 p1 p2 p3).ofBuf X = X := rfl
theorem ofBuf_v58 (p1 p2 p3) (X : main_v58.ty.Contents (Elt Ideal)) :
    (TRef.of (sig := sig) (T := ⟨S50000, .f32⟩) main_v58 p1 p2 p3).ofBuf X = X := rfl
theorem ofBuf_cst_14 (p1 p2 p3) (X : main_cst_14.ty.Contents (Elt Ideal)) :
    (TRef.of (sig := sig) (T := ⟨S_, .f32⟩) main_cst_14 p1 p2 p3).ofBuf X = X := rfl
theorem toBuf_v101 (p1 p2 p3) (X : (⟨S50000, .f32⟩ : BufTy).Contents (Elt Ideal)) :
    (TRef.of (sig := sig) (T := ⟨S50000, .f32⟩) main_v101 p1 p2 p3).toBuf X = X := rfl
theorem ofBuf_v97 (p1 p2 p3) (X : main_v97.ty.Contents (Elt Ideal)) :
    (TRef.of (sig := sig) (T := ⟨S50000, .i1⟩) main_v97 p1 p2 p3).ofBuf X = X := rfl
theorem ofBuf_v100 (p1 p2 p3) (X : main_v100.ty.Contents (Elt Ideal)) :
    (TRef.of (sig := sig) (T := ⟨S50000, .f32⟩) main_v100 p1 p2 p3).ofBuf X = X := rfl
theorem ofBuf_cst_26 (p1 p2 p3) (X : main_cst_26.ty.Contents (Elt Ideal)) :
    (TRef.of (sig := sig) (T := ⟨S_, .f32⟩) main_cst_26 p1 p2 p3).ofBuf X = X := rfl

end Cert.KernelIdeal.Casts

end
-- ==== Proof.Bridge.lean ====
/-
  THE TWO PROGRAMS COMPUTE ONE FUNCTION OF THE ARGUMENTS.

  Both programs are the same three graph-convolution layers.  A layer takes the node features h, projects them
  (h · W), scales each edge's source row by the symmetric degree normalisation, adds the scaled rows up at the
  edge's target node and adds the bias.  Everything but the projection is, in both programs, the same host
  operations on the same values; the projection is one host dot_general in the reference and one tiled launch in
  the kernel program, and both are the whole product (the launch modules; `RefValue.dot_eq`).

  So the kernel program's result buffer — the fold of its segments' contents, read at the result — is opened one
  stretch of host operations at a time, from the return back to the launch: each stretch's operations are applied
  to the previous boundary's contents, each launch's output buffer is replaced by the product of what the launch
  was entered with, and every other buffer a launch leaves alone is read at the launch's entry.  The layer's small
  function for the normalising factor passes its values through typed buffer references; those transports are
  the identity (Proof/LibTypedRef.lean, Proof/Casts.lean) and are removed as each stretch is opened.  What is left is
  the reference's own term of the arguments, with `product` where the reference has its dot_general.
-/
import proofs.«146344_j73272142070247_1_alg».proof.Proof.KernelFold
import proofs.«146344_j73272142070247_1_alg».proof.Proof.RefProduct
import proofs.«146344_j73272142070247_1_alg».proof.Proof.Casts

set_option maxRecDepth 16384

noncomputable section

namespace Cert.Bridge

open Cert.KernelIdeal Cert.KernelIdeal.Gen Cert.KernelIdeal.Casts Cert.Lib.TypedRef Cert.Product
open Idealize.ShloMosaic Idealize.ShloMosaic.TcCoe Idealize.SL.Sem Idealize.ShloMosaic.StableHlo

set_option maxHeartbeats 4000000 in
/-- The reference's result term of arguments that agree with the kernel program's is what the kernel program's
    result buffer holds at the return. -/
theorem result_eq (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ)
    (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7)) :
    Cert.ReferenceIdeal.ValueP.res_main_v132 m' c = W13 m ρ c (Proc.devRef .tc main_v132) := by
  symm
  -- layer 3's aggregation: the stretch from the third launch's exit to the return
  show StableHlo.after hostOps3_2 (StableHlo.after hostOps3_1 (StableHlo.after hostOps3 (W10 m ρ c))) (Proc.devRef .tc main_v132) = _
  simp only [hostOps3, hostOps3_1, hostOps3_2]
  after_results_simp
  simp only [ofBuf_toBuf, toBuf_v101, ofBuf_v97, ofBuf_v100, ofBuf_cst_26]
  rw [Fold.v91 m ρ c, W10_of_ne m ρ c main_v3 (by decide), W10_of_ne m ρ c main_v6 (by decide),
    W10_of_ne m ρ c main_arg7 (by decide)]
  -- layer 2's aggregation: the stretch between the second and the third launch
  simp only [W9, W8, W7, hostOps2, hostOps2_1, hostOps2_2]
  after_results_simp
  simp only [ofBuf_toBuf, toBuf_v59, ofBuf_v55, ofBuf_v58, ofBuf_cst_14]
  rw [Fold.v49 m ρ c, W6_of_ne m ρ c main_v3 (by decide), W6_of_ne m ρ c main_v6 (by decide),
    W6_of_ne m ρ c main_arg5 (by decide), W6_of_ne m ρ c main_arg6 (by decide), W6_of_ne m ρ c main_arg7 (by decide)]
  -- layer 1's aggregation: the stretch between the first and the second launch
  simp only [W5, W4, W3, hostOps1, hostOps1_1, hostOps1_2]
  after_results_simp
  simp only [ofBuf_toBuf, toBuf_v17, ofBuf_v13, ofBuf_v16, ofBuf_cst_3]
  rw [Fold.v7 m ρ c, W2_of_ne m ρ c main_v3 (by decide), W2_of_ne m ρ c main_v6 (by decide),
    W2_of_ne m ρ c main_arg3 (by decide), W2_of_ne m ρ c main_arg4 (by decide), W2_of_ne m ρ c main_arg5 (by decide),
    W2_of_ne m ρ c main_arg6 (by decide), W2_of_ne m ρ c main_arg7 (by decide)]
  -- the edge lists with their self loops: the stretch before the first launch
  simp only [W1, hostOps0]
  after_results_simp
  -- the reference's term, its three dot_generals as products, at the agreeing arguments
  unfold Cert.ReferenceIdeal.ValueP.res_main_v132
  simp only [Cert.ReferenceIdeal.RefValue.dot_eq]
  rw [h0, h1, h2, h3, h4, h5, h6, h7]
  rfl

end Cert.Bridge

end
-- ==== Proof.lean ====
/-
  A THREE-LAYER GRAPH CONVOLUTION: the kernel program against its jnp reference, on the extended reals.

  The network has 50000 nodes with 64 features each and 800000 directed edges, to which a self loop per node is
  added.  One layer maps the node features h to

      out[v]  =  Σ over edges (u → v) of   d[u] · d[v] · (h · W)[u]   +   b ,     d[v] = (in-degree of v)^(-1/2)

  (d[v] taken as 0 where the degree is not positive, and the degree floored at a tiny positive constant before the
  inverse square root).  Three layers with weights W1, W2, W3 and biases b1, b2, b3 are composed.

  The two programs differ in ONE place per layer, the projection h · W: the reference computes it with one host
  dot_general; the kernel program launches a tiled kernel that walks ten blocks of 5000 rows, casts the block and
  the weight to a narrower float format, and multiplies them into a zero accumulator.  On ideal values a change of
  format is the identity and a sum is a sum in any grouping, and entry (r, c) of a product reads only row r of the
  left factor — so the ten blocks written back are exactly the rows of the whole product (Proof/Region0..2.lean
  over Proof/Product.lean), which is also what the dot_general is (Proof/RefProduct.lean).  Every other operation —
  building the edge lists, the degrees, the normalisation, the gathers, the scatter-adds, the bias — is the same
  operation on the same values in both programs, so it is carried along and never opened (Proof/Bridge.lean).
  No law used here needs finiteness (nothing is distributed over a sum or cancelled), so the precondition
  "every float input is finite" is never opened.

  The claims:  the two kernel programs' frames are the generated ones; the reference's frame is its run with the
  result dropped; the idealized kernel program is the kernel program's own text read at ideal values (no rewrite
  was applied, so there is nothing to preserve); and the two idealized programs, run from memories that agree on the
  arguments, both end with the same result: the kernel program's run with its result buffer named
  (Proof/KernelRun.lean) and the reference's run, joined by Proof/Bridge.lean.
-/
import proofs.«146344_j73272142070247_1_alg».proof.Defs
import proofs.«146344_j73272142070247_1_alg».proof.Proof.Gen.Kernel
import proofs.«146344_j73272142070247_1_alg».proof.Proof.Gen.Kernel.Frame
import proofs.«146344_j73272142070247_1_alg».proof.Proof.Gen.KernelIdeal
import proofs.«146344_j73272142070247_1_alg».proof.Proof.Gen.KernelIdeal.Frame
import proofs.«146344_j73272142070247_1_alg».proof.Proof.Gen.ReferenceIdeal
import proofs.«146344_j73272142070247_1_alg».proof.Proof.Gen.Pre_finite_inputs
import proofs.«146344_j73272142070247_1_alg».proof.Proof.KernelRun
import proofs.«146344_j73272142070247_1_alg».proof.Proof.RefRunP
import proofs.«146344_j73272142070247_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs, and leaves its arguments as launched. -/
theorem frame_kernel : Cert.frame_Kernel := fun m ρ _ => Cert.Kernel.Gen.frame m ρ

/-- So does the kernel program read at ideal values. -/
theorem frame_kernelIdeal : Cert.frame_KernelIdeal := fun m ρ _ => Cert.KernelIdeal.Gen.frame m ρ

/-- The reference runs and leaves its arguments as launched: its run, with what it says of the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the eight arguments both idealized programs end with one and the same result array:
    what the kernel program's result buffer holds at the return. -/
theorem algebraic : Cert.algebraic_KernelIdeal_ReferenceIdeal := by
  intro m ρ m' ρ' _ hagree
  refine ⟨fun c => Cert.KernelIdeal.Gen.W13 m ρ c (Proc.devRef .tc Cert.KernelIdeal.main_v132),
    Cert.KernelIdeal.Run.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  exact Cert.Bridge.result_eq m ρ m' c h0 h1 h2 h3 h4 h5 h6 h7

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
